-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S1600000 32) (main_arg1 : IVec S1600000 32) (main_arg2 : FVec F S1600000 .f32) (main_arg3 : FVec F S100000x128 .f32) (main_arg4 : FVec F S128x128 .f32) (main_arg5 : FVec F S128 .f32) (main_arg6 : FVec F S128x128 .f32) (main_arg7 : FVec F S128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 45
  | .vmem => 10
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S1x128, .f32⟩
  | .hbm, ⟨43, _⟩ => ⟨S1x128, .f32⟩
  | .hbm, ⟨44, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KernelPay.lean ====
/-
  The kernel body's one stored value, read at an entry of the block.

  For a block of 10000 rows, with L and X the row blocks of the aggregated messages and of the features,
  A and C the two (already transposed) 128 x 128 weight blocks and r, s the two [1, 128] bias rows, entry (p, q)
  of what the body stores is
      ( sum_l (L[p,l] + X[p,l]) * A[l,q]  +  r[0,q] )  +  ( sum_l (L[p,l] * X[p,l]) * C[l,q]  +  s[0,q] ):
  each matrix product runs into a zero accumulator, so it is the plain sum over the contraction index, and the
  narrowing of the left operands to bf16 is the identity on extended reals.
-/
import proofs.«177855_j14817637171801_1_alg».proof.Proof.Gen.KernelIdeal.Skeleton
import proofs.«177855_j14817637171801_1_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The body's dimension numbers are those of a plain 10000 x 128 by 128 x 128 product. -/
theorem dot_plain : dot_S10000x128_S128x128_S10000x128_1_0_0_1_n_n = DotDims.plain 10000 128 128 := rfl

/-- The stored value at entry (p, q) of the block. -/
theorem pay_apply (x0 x1 : Vec Ideal S10000x128 .f32) (x2 : Vec Ideal S128x128 .bf16) (x3 : Vec Ideal S1x128 .f32)
    (x4 : Vec Ideal S128x128 .bf16) (x5 : Vec Ideal S1x128 .f32) (p : Fin 10000) (q : Fin 128) :
    k0_pay1 (F := Ideal) x0 x1 x2 x3 x4 x5 (ix2 p q)
      = ((∑ l : Fin 128, (x0 (ix2 p l) + x1 (ix2 p l)) * x2 (ix2 l q)) + x3 (ix2 (0 : Fin 1) q))
        + ((∑ l : Fin 128, (x0 (ix2 p l) * x1 (ix2 p l)) * x4 (ix2 l q)) + x5 (ix2 (0 : Fin 1) q)) := by
  unfold k0_pay1
  simp only [shapeCast_self, dot_plain]
  rw [addf_apply, addf_apply, addf_apply]
  refine congrArg₂ (· + ·) (congrArg₂ (· + ·) ?_ ?_) (congrArg₂ (· + ·) ?_ ?_)
  · exact Cert.LibPlainDot.matmul_zero_apply none _ x2 p q
  · exact broadcastTo_1b_ab_apply x3 _ p q
  · exact Cert.LibPlainDot.matmul_zero_apply none _ x4 p q
  · exact broadcastTo_1b_ab_apply x5 _ p q

end Cert.KernelIdeal.Hand

end
-- ==== Proof.KernelBlocks.lean ====
/-
  From the blocks the grid points write back to the whole result array.

  The grid has ten points; point t stages rows 10000 t .. 10000 t + 9999 of the aggregated messages and of the
  features, the whole of each weight matrix and bias row, and writes back rows 10000 t .. 10000 t + 9999 of the
  result.  So the result array is, entry by entry, one function of the six staged arrays.
-/
import proofs.«177855_j14817637171801_1_alg».proof.Proof.Gen.KernelIdeal.Value
import proofs.«177855_j14817637171801_1_alg».proof.Proof.KernelPay
import Idealize.ShloMosaic.Lib.Pipeline.Value

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- Entry (p, q) of the result as a function of the six staged arrays. -/
def entry (A0 A1 : S100000x128.Idx → EReal) (A2 : S128x128.Idx → EReal) (A3 : S1x128.Idx → EReal)
    (A4 : S128x128.Idx → EReal) (A5 : S1x128.Idx → EReal) (p : Fin 100000) (q : Fin 128) : EReal :=
  ((∑ l : Fin 128, (A0 (ix2 p l) + A1 (ix2 p l)) * A2 (ix2 l q)) + A3 (ix2 (0 : Fin 1) q))
    + ((∑ l : Fin 128, (A0 (ix2 p l) * A1 (ix2 p l)) * A4 (ix2 l q)) + A5 (ix2 (0 : Fin 1) q))

/-- The result array as a function of the six staged arrays. -/
def whole (A0 A1 : S100000x128.Idx → EReal) (A2 : S128x128.Idx → EReal) (A3 : S1x128.Idx → EReal)
    (A4 : S128x128.Idx → EReal) (A5 : S1x128.Idx → EReal) : S100000x128.Idx → EReal :=
  fun i => entry A0 A1 A2 A3 A4 A5 (i 0) (i 1)

/-- The printed index maps over the grid: the two row-blocked inputs and the output move down by one block per
    point, the weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A row-blocked input's block at point t, read at (p, l): the array at row 10000 t + p. -/
theorem read_rows0 (A : S100000x128.Idx → EReal) (t : Fin cfg0.N) (p : Fin 10000) (l : Fin 128)
    (hp : t.val * 10000 + p.val < 100000) :
    ((cfg0.win 0).blk t).view.read (Elt Ideal) A (ix2 p l) = A (ix2 ⟨t.val * 10000 + p.val, hp⟩ l) := by
  show A (((cfg0.win 0).blk t).view.emb (ix2 p l)) = _
  refine congrArg A (funext fun a => Fin.ext ?_)
  obtain ⟨e0, e1, -⟩ := idx_facts t
  match a with
  | ⟨0, _⟩ => show win0_0.index t (0 : Fin 2) * 10000 + 1 * p.val = t.val * 10000 + p.val; rw [e0]; omega
  | ⟨1, _⟩ => show win0_0.index t (1 : Fin 2) * 128 + 1 * l.val = l.val; rw [e1]; omega

theorem read_rows1 (A : S100000x128.Idx → EReal) (t : Fin cfg0.N) (p : Fin 10000) (l : Fin 128)
    (hp : t.val * 10000 + p.val < 100000) :
    ((cfg0.win 1).blk t).view.read (Elt Ideal) A (ix2 p l) = A (ix2 ⟨t.val * 10000 + p.val, hp⟩ l) := by
  show A (((cfg0.win 1).blk t).view.emb (ix2 p l)) = _
  refine congrArg A (funext fun a => Fin.ext ?_)
  obtain ⟨-, -, e0, e1, -⟩ := idx_facts t
  match a with
  | ⟨0, _⟩ => show win0_1.index t (0 : Fin 2) * 10000 + 1 * p.val = t.val * 10000 + p.val; rw [e0]; omega
  | ⟨1, _⟩ => show win0_1.index t (1 : Fin 2) * 128 + 1 * l.val = l.val; rw [e1]; omega

/-- A weight matrix is staged whole at every point. -/
theorem read_w2 (A : S128x128.Idx → EReal) (t : Fin cfg0.N) (l q : Fin 128) :
    ((cfg0.win 2).blk t).view.read (Elt Ideal) A (ix2 l q) = A (ix2 l q) := by
  show A (((cfg0.win 2).blk t).view.emb (ix2 l q)) = _
  refine congrArg A (funext fun a => Fin.ext ?_)
  obtain ⟨-, -, -, -, e0, e1, -⟩ := idx_facts t
  match a with
  | ⟨0, _⟩ => show win0_2.index t (0 : Fin 2) * 128 + 1 * l.val = l.val; rw [e0]; omega
  | ⟨1, _⟩ => show win0_2.index t (1 : Fin 2) * 128 + 1 * q.val = q.val; rw [e1]; omega

theorem read_w4 (A : S128x128.Idx → EReal) (t : Fin cfg0.N) (l q : Fin 128) :
    ((cfg0.win 4).blk t).view.read (Elt Ideal) A (ix2 l q) = A (ix2 l q) := by
  show A (((cfg0.win 4).blk t).view.emb (ix2 l q)) = _
  refine congrArg A (funext fun a => Fin.ext ?_)
  obtain ⟨-, -, -, -, -, -, -, -, e0, e1, -⟩ := idx_facts t
  match a with
  | ⟨0, _⟩ => show win0_4.index t (0 : Fin 2) * 128 + 1 * l.val = l.val; rw [e0]; omega
  | ⟨1, _⟩ => show win0_4.index t (1 : Fin 2) * 128 + 1 * q.val = q.val; rw [e1]; omega

/-- A bias row is staged whole at every point. -/
theorem read_b3 (A : S1x128.Idx → EReal) (t : Fin cfg0.N) (u : Fin 1) (q : Fin 128) :
    ((cfg0.win 3).blk t).view.read (Elt Ideal) A (ix2 u q) = A (ix2 u q) := by
  show A (((cfg0.win 3).blk t).view.emb (ix2 u q)) = _
  refine congrArg A (funext fun a => Fin.ext ?_)
  obtain ⟨-, -, -, -, -, -, e0, e1, -⟩ := idx_facts t
  match a with
  | ⟨0, _⟩ => show win0_3.index t (0 : Fin 2) * 1 + 1 * u.val = u.val; rw [e0]; omega
  | ⟨1, _⟩ => show win0_3.index t (1 : Fin 2) * 128 + 1 * q.val = q.val; rw [e1]; omega

theorem read_b5 (A : S1x128.Idx → EReal) (t : Fin cfg0.N) (u : Fin 1) (q : Fin 128) :
    ((cfg0.win 5).blk t).view.read (Elt Ideal) A (ix2 u q) = A (ix2 u q) := by
  show A (((cfg0.win 5).blk t).view.emb (ix2 u q)) = _
  refine congrArg A (funext fun a => Fin.ext ?_)
  obtain ⟨-, -, -, -, -, -, -, -, -, -, e0, e1, -⟩ := idx_facts t
  match a with
  | ⟨0, _⟩ => show win0_5.index t (0 : Fin 2) * 1 + 1 * u.val = u.val; rw [e0]; omega
  | ⟨1, _⟩ => show win0_5.index t (1 : Fin 2) * 128 + 1 * q.val = q.val; rw [e1]; omega

/-- Where entry (p, q) of the output's block at point t sits in the result array. -/
theorem emb_out (t : Fin cfg0.N) (p : Fin 10000) (q : Fin 128) (hp : t.val * 10000 + p.val < 100000) :
    ((cfg0.win 6).blk t).view.emb (ix2 p q) = (ix2 ⟨t.val * 10000 + p.val, hp⟩ q : S100000x128.Idx) := by
  refine funext fun a => Fin.ext ?_
  obtain ⟨-, -, -, -, -, -, -, -, -, -, -, -, e0, e1⟩ := idx_facts t
  match a with
  | ⟨0, _⟩ => show win0_6.index t (0 : Fin 2) * 10000 + 1 * p.val = t.val * 10000 + p.val; rw [e0]; omega
  | ⟨1, _⟩ => show win0_6.index t (1 : Fin 2) * 128 + 1 * q.val = q.val; rw [e1]; omega

/-- The body's stored block at point t, over ANY six arrays in place of the staged ones, is block t of `whole`. -/
theorem block_eq (A0 A1 : S100000x128.Idx → EReal) (A2 : S128x128.Idx → EReal) (A3 : S1x128.Idx → EReal)
    (A4 : S128x128.Idx → EReal) (A5 : S1x128.Idx → EReal) (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (whole A0 A1 A2 A3 A4 A5) := by
  unfold out0_6
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  have hN : cfg0.N = 10 := N_0
  have hp : t.val * 10000 + p.val < 100000 := by have := t.isLt; have := p.isLt; omega
  show k0_pay1 (F := Ideal) _ _ _ _ _ _ (ix2 p q) = whole A0 A1 A2 A3 A4 A5 (((cfg0.win 6).blk t).view.emb (ix2 p q))
  rw [emb_out t p q hp]
  refine (pay_apply _ _ _ _ _ _ p q).trans ?_
  show _ = entry A0 A1 A2 A3 A4 A5 ⟨t.val * 10000 + p.val, hp⟩ q
  unfold entry
  refine congrArg₂ (· + ·) (congrArg₂ (· + ·) (Finset.sum_congr rfl fun l _ => ?_) (read_b3 A3 t 0 q))
    (congrArg₂ (· + ·) (Finset.sum_congr rfl fun l _ => ?_) (read_b5 A5 t 0 q))
  · exact congrArg₂ (· * ·) (congrArg₂ (· + ·) (read_rows0 A0 t p l hp) (read_rows1 A1 t p l hp)) (read_w2 A2 t l q)
  · exact congrArg₂ (· * ·) (congrArg₂ (· * ·) (read_rows0 A0 t p l hp) (read_rows1 A1 t p l hp)) (read_w4 A4 t l q)

variable (m : (ℓ : Loc nD τ sig) → Buf (Elt Ideal) ℓ) (ρ : Dev nD → PrngReg)

/-- What point t writes back is block t of `whole` of the six staged arrays as the region finds them. -/
theorem flushed_eq (c : Dev nD) (t : Fin cfg0.N) :
    (dats m 0 c).flushed 6 t = ((cfg0.win 6).blk t).view.read (Elt Ideal)
      (whole (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Value.flushed6]
  unfold iblk
  exact block_eq (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- An index of the result array is in point t's block iff each coordinate is in the block's range on its axis. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v13).slice (win0_6.rect t)).set ↔ _
  rw [View.set_slice_whole, Rect.mem_set_unit]
  exact Iff.rfl

/-- Row r of the result lies in the block of point r / 10000, which writes back. -/
theorem cover (i : S100000x128.Idx) :
    ∃ t : Fin cfg0.N, (cfg0.win 6).flush t = true ∧ i ∈ ((cfg0.win 6).blk t).view.set := by
  have hN : cfg0.N = 10 := N_0
  have hi0 : (i 0).val < 100000 := (i 0).isLt
  have hi1 : (i 1).val < 128 := (i 1).isLt
  have ht : (i 0).val / 10000 < cfg0.N := by omega
  refine ⟨⟨(i 0).val / 10000, ht⟩, flush0_6 _, ?_⟩
  rw [mem_blk]
  obtain ⟨-, -, -, -, -, -, -, -, -, -, -, -, e0, e1⟩ := idx_facts ⟨(i 0).val / 10000, ht⟩
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, ht⟩ (1 : Fin 2) * 128 ≤ (i 1).val
      ∧ (i 1).val < win0_6.index ⟨(i 0).val / 10000, ht⟩ (1 : Fin 2) * 128 + 128
    rw [e1]
    omega

/-- The result array after the run is `whole` of the six staged arrays as the region finds them. -/
theorem final (c : Dev nD) :
    (dats m 0 c).arrAt 6 cfg0.N
      = whole (V m c (Pipeline.arrRef spec0 0)) (V m c (Pipeline.arrRef spec0 1)) (V m c (Pipeline.arrRef spec0 2))
          (V m c (Pipeline.arrRef spec0 3)) (V m c (Pipeline.arrRef spec0 4)) (V m c (Pipeline.arrRef spec0 5)) :=
  (dats m 0 c).arrAt_eq_of_cover 6 _ (fun t _ => flushed_eq m c t) cover

end Cert.KernelIdeal.Hand

end
-- ==== Proof.KernelPrefix.lean ====
/-
  The aggregated messages, as a function of the edge list and the features, and the host operations that compute it.

  jnp.take of the feature rows by source node (negative indices wrapped, out-of-range rows filled with the
  not-a-number pattern), each row scaled by its edge value, and the segment sum by destination node print as
  thirty host operations.  They fall into five stretches — the edge values as a column, the wrapped source
  index, the in-range test, the gathered rows, the scaled scatter-add —, each a function of a few buffers whatever
  the contents of the rest; composed, the five give `aggregate`.
-/
import proofs.«177855_j14817637171801_1_alg».proof.Proof.Gen.KernelIdeal
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The aggregation as a composition of four steps -/

/-- A source index below zero has the node count added (python's negative indexing); the result as a column. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge, whether the wrapped source index lies in 0 .. 99999. -/
def inRange (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Per edge, the feature row of its source node (the gather clamps the index), or the not-a-number pattern
    when the wrapped index is out of range. -/
def takeRows (feats : FVec F S100000x128 .f32) (idx : IVec S1600000x1 32) (ok : IVec S1600000 1) :
    FVec F S1600000x128 .f32 :=
  select (broadcastInDim S1600000x128 ![0] bcast_S1600000_S1600000x128_0 ok)
    (Host.gather gather_S100000x128_S1600000x1_S1600000x128_1_0_n_n_0_1_1128 feats idx)
    (broadcastInDim S1600000x128 ![] bcast_S_S1600000x128 (constant S_ .f32 0x7FC00000#32))

/-- The rows scaled by the edge values (given as a column) and scatter-added by destination node onto zero. -/
def scatterRows (dst : IVec S1600000 32) (vals : FVec F S1600000x1 .f32) (rows : FVec F S1600000x128 .f32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (broadcastInDim S1600000x128 ![0, 1] bcast_S1600000x1_S1600000x128_0_1 vals) rows)

/-- The aggregated messages: row d is the sum over the edges e with destination d of vals[e] times the feature
    row of e's source node. -/
def aggregate (src dst : IVec S1600000 32) (vals : FVec F S1600000 .f32) (feats : FVec F S100000x128 .f32) :
    FVec F S100000x128 .f32 :=
  scatterRows dst (broadcastInDim S1600000x1 ![0] bcast_S1600000_S1600000x1_0 vals)
    (takeRows feats (wrapIdx src) (inRange (wrapIdx src)))

/-! ## The thirty host operations that compute it, in five stretches -/

/-- The edge values as a column. -/
abbrev pre0 : List (HloOp τ sig (Elt F)) :=
  [ StableHlo.unary main_arg2 main_v0 (broadcastInDim S1600000x1 ![0] bcast_S1600000_S1600000x1_0 : (⟨S1600000, .f32⟩ : BufTy).Contents (Elt F) → (⟨S1600000x1, .f32⟩ : BufTy).Contents (Elt F)) ]

/-- The wrapped source index as a column (`main_call0_v5`). -/
abbrev pre1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_arg0 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_arg0 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_arg0 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]

/-- The in-range test (`main_call0_v12`). -/
abbrev pre2 : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The gathered rows (`main_v1`). -/
abbrev pre3 : List (HloOp τ sig (Elt F)) :=
  [ StableHlo.TRef.binary (.of main_arg3 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i),
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v1 : StableHlo.TRef sig ⟨S1600000x128, .f32⟩) select ]

/-- The scaling and the scatter-add (`main_v6`). -/
abbrev pre4 : List (HloOp τ sig (Elt F)) :=
  [ StableHlo.unary main_v0 main_v2 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v2 main_v1 main_v3 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v4 (broadcastInDim S100000x128 ![] bcast_S_S100000x128 : (⟨S_, .f32⟩ : BufTy).Contents (Elt F) → (⟨S100000x128, .f32⟩ : BufTy).Contents (Elt F)),
    StableHlo.unary main_arg1 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v3 main_v6 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Running two lines one after the other folds the second over what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

section Stages
variable (W : Valuation τ sig (Elt F))

/-! Each stretch read from ANY contents W of the buffers: what it computes, and the buffers it leaves alone. -/

theorem s0_v0 : after (pre0 (F := F)) W (main_v0 : DevRef τ sig)
    = broadcastInDim S1600000x1 ![0] bcast_S1600000_S1600000x1_0 (W (main_arg2 : DevRef τ sig)) := by
  simp only [pre0]; after_results_simp
theorem s0_arg0 : after (pre0 (F := F)) W (main_arg0 : DevRef τ sig) = W (main_arg0 : DevRef τ sig) := by
  simp only [pre0]; after_results_simp
theorem s0_arg1 : after (pre0 (F := F)) W (main_arg1 : DevRef τ sig) = W (main_arg1 : DevRef τ sig) := by
  simp only [pre0]; after_results_simp
theorem s0_arg3 : after (pre0 (F := F)) W (main_arg3 : DevRef τ sig) = W (main_arg3 : DevRef τ sig) := by
  simp only [pre0]; after_results_simp

theorem s1_v5 : after (pre1 (F := F)) W (main_call0_v5 : DevRef τ sig) = wrapIdx (W (main_arg0 : DevRef τ sig)) := by
  simp only [pre1]; after_results_simp
  simp only [TRef.ofBuf, TRef.toBuf, cast_eq]
  rfl
theorem s1_arg1 : after (pre1 (F := F)) W (main_arg1 : DevRef τ sig) = W (main_arg1 : DevRef τ sig) := by
  simp only [pre1]; after_results_simp
theorem s1_arg3 : after (pre1 (F := F)) W (main_arg3 : DevRef τ sig) = W (main_arg3 : DevRef τ sig) := by
  simp only [pre1]; after_results_simp
theorem s1_v0 : after (pre1 (F := F)) W (main_v0 : DevRef τ sig) = W (main_v0 : DevRef τ sig) := by
  simp only [pre1]; after_results_simp

theorem s2_v12 : after (pre2 (F := F)) W (main_call0_v12 : DevRef τ sig) = inRange (W (main_call0_v5 : DevRef τ sig)) := by
  simp only [pre2]; after_results_simp
  simp only [TRef.ofBuf, TRef.toBuf, cast_eq]
  rfl
theorem s2_v5 : after (pre2 (F := F)) W (main_call0_v5 : DevRef τ sig) = W (main_call0_v5 : DevRef τ sig) := by
  simp only [pre2]; after_results_simp
theorem s2_arg1 : after (pre2 (F := F)) W (main_arg1 : DevRef τ sig) = W (main_arg1 : DevRef τ sig) := by
  simp only [pre2]; after_results_simp
theorem s2_arg3 : after (pre2 (F := F)) W (main_arg3 : DevRef τ sig) = W (main_arg3 : DevRef τ sig) := by
  simp only [pre2]; after_results_simp
theorem s2_v0 : after (pre2 (F := F)) W (main_v0 : DevRef τ sig) = W (main_v0 : DevRef τ sig) := by
  simp only [pre2]; after_results_simp

theorem s3_v1 : after (pre3 (F := F)) W (main_v1 : DevRef τ sig)
    = takeRows (W (main_arg3 : DevRef τ sig)) (W (main_call0_v5 : DevRef τ sig)) (W (main_call0_v12 : DevRef τ sig)) := by
  simp only [pre3]; after_results_simp
  simp only [TRef.ofBuf, TRef.toBuf, cast_eq]
  rfl
theorem s3_arg1 : after (pre3 (F := F)) W (main_arg1 : DevRef τ sig) = W (main_arg1 : DevRef τ sig) := by
  simp only [pre3]; after_results_simp
theorem s3_v0 : after (pre3 (F := F)) W (main_v0 : DevRef τ sig) = W (main_v0 : DevRef τ sig) := by
  simp only [pre3]; after_results_simp

theorem s4_v6 : after (pre4 (F := F)) W (main_v6 : DevRef τ sig)
    = scatterRows (W (main_arg1 : DevRef τ sig)) (W (main_v0 : DevRef τ sig)) (W (main_v1 : DevRef τ sig)) := by
  simp only [pre4]; after_results_simp
  rfl

end Stages

/-- The thirty operations, from ANY contents W of the buffers, leave the aggregated messages of W's edge list
    and features in `main_v6`. -/
theorem prefix_msgs (W : Valuation τ sig (Elt F)) :
    after (pre0 ++ pre1 ++ pre2 ++ pre3 ++ pre4) W (main_v6 : DevRef τ sig)
      = aggregate (W (main_arg0 : DevRef τ sig)) (W (main_arg1 : DevRef τ sig)) (W (main_arg2 : DevRef τ sig))
          (W (main_arg3 : DevRef τ sig)) := by
  rw [after_append', after_append', after_append', after_append']
  rw [s4_v6, s3_v1, s3_arg1, s3_v0, s2_v12, s2_v5, s2_arg3, s2_arg1, s2_v0, s1_v5, s1_arg3, s1_arg1, s1_v0,
    s0_v0, s0_arg0, s0_arg1, s0_arg3]
  rfl

end Cert.KernelIdeal.Hand

end
-- ==== Proof.KernelHost.lean ====
/-
  What the region finds in its six staged arrays, as functions of the program's arguments.

  The host operations before the region are the thirty that build the aggregated messages (`aggregate`), then
  six more: each weight matrix transposed (and narrowed to bf16, the identity on extended reals), each bias
  vector given a leading unit axis.  The features are staged as launched.
-/
import proofs.«177855_j14817637171801_1_alg».proof.Proof.Gen.KernelIdeal.Frame
import proofs.«177855_j14817637171801_1_alg».proof.Proof.KernelPrefix
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The six operations after the aggregation: the weights' transposes and the biases' rows. -/
abbrev post : List (HloOp τ sig (Elt F)) :=
  [ StableHlo.unary main_arg4 main_v7 ((transpose S128x128 [1, 0] · transposes_S128x128_S128x128_1_0) : (⟨S128x128, .f32⟩ : BufTy).Contents (Elt F) → (⟨S128x128, .f32⟩ : BufTy).Contents (Elt F)),
    StableHlo.unary main_v7 main_v8 ((truncf .bf16 · bitsLt_bf16_f32) : (⟨S128x128, .f32⟩ : BufTy).Contents (Elt F) → (⟨S128x128, .bf16⟩ : BufTy).Contents (Elt F)),
    StableHlo.unary main_arg6 main_v9 ((transpose S128x128 [1, 0] · transposes_S128x128_S128x128_1_0) : (⟨S128x128, .f32⟩ : BufTy).Contents (Elt F) → (⟨S128x128, .f32⟩ : BufTy).Contents (Elt F)),
    StableHlo.unary main_v9 main_v10 ((truncf .bf16 · bitsLt_bf16_f32) : (⟨S128x128, .f32⟩ : BufTy).Contents (Elt F) → (⟨S128x128, .bf16⟩ : BufTy).Contents (Elt F)),
    StableHlo.reshape main_arg5 main_v11 rfl shapeCasts_S128_S1x128,
    StableHlo.reshape main_arg7 main_v12 rfl shapeCasts_S128_S1x128 ]

/-- The host operations before the region are the aggregation's thirty and those six. -/
theorem hostOps_eq : (List.flatten [hostOps0, hostOps0_1, hostOps0_2] : List (HloOp τ sig (Elt F)))
    = (pre0 ++ pre1 ++ pre2 ++ pre3 ++ pre4) ++ post := rfl

section Post
variable (W : Valuation τ sig (Elt F))

theorem post_v6 : after (post (F := F)) W (main_v6 : DevRef τ sig) = W (main_v6 : DevRef τ sig) := by
  simp only [post]; after_results_simp
theorem post_arg3 : after (post (F := F)) W (main_arg3 : DevRef τ sig) = W (main_arg3 : DevRef τ sig) := by
  simp only [post]; after_results_simp
theorem post_v8 : after (post (F := F)) W (main_v8 : DevRef τ sig)
    = truncf .bf16 (transpose S128x128 [1, 0] (W (main_arg4 : DevRef τ sig)) transposes_S128x128_S128x128_1_0) bitsLt_bf16_f32 := by
  simp only [post]; after_results_simp
theorem post_v10 : after (post (F := F)) W (main_v10 : DevRef τ sig)
    = truncf .bf16 (transpose S128x128 [1, 0] (W (main_arg6 : DevRef τ sig)) transposes_S128x128_S128x128_1_0) bitsLt_bf16_f32 := by
  simp only [post]; after_results_simp
theorem post_v11 : after (post (F := F)) W (main_v11 : DevRef τ sig)
    = shapeCast S1x128 (W (main_arg5 : DevRef τ sig)) shapeCasts_S128_S1x128 := by
  simp only [post]; after_results_simp
  rfl
theorem post_v12 : after (post (F := F)) W (main_v12 : DevRef τ sig)
    = shapeCast S1x128 (W (main_arg7 : DevRef τ sig)) shapeCasts_S128_S1x128 := by
  simp only [post]; after_results_simp
  rfl

end Post

section Pre
variable (W : Valuation τ sig (Elt F))

/-- The aggregation's thirty operations leave the weights and biases as they were. -/
theorem pre_arg4 : after (pre0 ++ pre1 ++ pre2 ++ pre3 ++ pre4 : List (HloOp τ sig (Elt F))) W (main_arg4 : DevRef τ sig) = W (main_arg4 : DevRef τ sig) := by
  simp only [pre0, pre1, pre2, pre3, pre4, List.cons_append, List.nil_append]; after_results_simp
theorem pre_arg5 : after (pre0 ++ pre1 ++ pre2 ++ pre3 ++ pre4 : List (HloOp τ sig (Elt F))) W (main_arg5 : DevRef τ sig) = W (main_arg5 : DevRef τ sig) := by
  simp only [pre0, pre1, pre2, pre3, pre4, List.cons_append, List.nil_append]; after_results_simp
theorem pre_arg6 : after (pre0 ++ pre1 ++ pre2 ++ pre3 ++ pre4 : List (HloOp τ sig (Elt F))) W (main_arg6 : DevRef τ sig) = W (main_arg6 : DevRef τ sig) := by
  simp only [pre0, pre1, pre2, pre3, pre4, List.cons_append, List.nil_append]; after_results_simp
theorem pre_arg7 : after (pre0 ++ pre1 ++ pre2 ++ pre3 ++ pre4 : List (HloOp τ sig (Elt F))) W (main_arg7 : DevRef τ sig) = W (main_arg7 : DevRef τ sig) := by
  simp only [pre0, pre1, pre2, pre3, pre4, List.cons_append, List.nil_append]; after_results_simp

end Pre

variable (m : (ℓ : Loc nD τ sig) → Buf (Elt F) ℓ)

/-- The first staged array is the aggregated messages of the launched edge list and features. -/
theorem staged0 (c : Dev nD) :
    V m c (Pipeline.arrRef spec0 0)
      = aggregate (m ((c.tc : Thread nD τ).loc main_arg0)) (m ((c.tc : Thread nD τ).loc main_arg1))
          (m ((c.tc : Thread nD τ).loc main_arg2)) (m ((c.tc : Thread nD τ).loc main_arg3)) := by
  show after (List.flatten [hostOps0, hostOps0_1, hostOps0_2]) (fun b => m (c, b)) (main_v6 : DevRef τ sig) = _
  rw [hostOps_eq, after_append', post_v6, prefix_msgs]

/-- The second is the features as launched. -/
theorem staged1 (c : Dev nD) : V m c (Pipeline.arrRef spec0 1) = m ((c.tc : Thread nD τ).loc main_arg3) :=
  V_main_arg3 m c

/-- The third is the first weight matrix transposed. -/
theorem staged2 (c : Dev nD) :
    V m c (Pipeline.arrRef spec0 2)
      = truncf .bf16 (transpose S128x128 [1, 0] (m ((c.tc : Thread nD τ).loc main_arg4)) transposes_S128x128_S128x128_1_0) bitsLt_bf16_f32 := by
  show after (List.flatten [hostOps0, hostOps0_1, hostOps0_2]) (fun b => m (c, b)) (main_v8 : DevRef τ sig) = _
  rw [hostOps_eq, after_append', post_v8, pre_arg4]

/-- The fourth is the first bias vector as a row. -/
theorem staged3 (c : Dev nD) :
    V m c (Pipeline.arrRef spec0 3) = shapeCast S1x128 (m ((c.tc : Thread nD τ).loc main_arg5)) shapeCasts_S128_S1x128 := by
  show after (List.flatten [hostOps0, hostOps0_1, hostOps0_2]) (fun b => m (c, b)) (main_v11 : DevRef τ sig) = _
  rw [hostOps_eq, after_append', post_v11, pre_arg5]

/-- The fifth is the second weight matrix transposed. -/
theorem staged4 (c : Dev nD) :
    V m c (Pipeline.arrRef spec0 4)
      = truncf .bf16 (transpose S128x128 [1, 0] (m ((c.tc : Thread nD τ).loc main_arg6)) transposes_S128x128_S128x128_1_0) bitsLt_bf16_f32 := by
  show after (List.flatten [hostOps0, hostOps0_1, hostOps0_2]) (fun b => m (c, b)) (main_v10 : DevRef τ sig) = _
  rw [hostOps_eq, after_append', post_v10, pre_arg6]

/-- The sixth is the second bias vector as a row. -/
theorem staged5 (c : Dev nD) :
    V m c (Pipeline.arrRef spec0 5) = shapeCast S1x128 (m ((c.tc : Thread nD τ).loc main_arg7)) shapeCasts_S128_S1x128 := by
  show after (List.flatten [hostOps0, hostOps0_1, hostOps0_2]) (fun b => m (c, b)) (main_v12 : DevRef τ sig) = _
  rw [hostOps_eq, after_append', post_v12, pre_arg7]

end Cert.KernelIdeal.Hand

end
-- ==== Proof.Spec.lean ====
/-
  The dense layer of the message-passing network, as one function of its arrays.

  With LE the aggregated messages (an [N, 128] array), X the node features, W1, W2 two 128 x 128 weight
  matrices and b1, b2 two bias vectors, the layer's output at node p and feature q is

      ( sum_l (LE[p,l] + X[p,l]) * W1[q,l]  +  b1[q] )  +  ( sum_l (LE[p,l] * X[p,l]) * W2[q,l]  +  b2[q] ),

  that is (LE + X) W1^T + b1 added to (LE * X) W2^T + b2, read on the extended reals.  Both programs compute
  exactly this grouping of the sums, so no law of the extended reals beyond equality of terms is needed.
-/
import Idealize.ShloMosaic.Lib.ValueIdx

noncomputable section

open scoped BigOperators

namespace Cert.GnnSpec

open Idealize.ShloMosaic Idealize.ShloMosaic.ValueIdx

/-- Entry (p, q) of the layer's output, over N nodes. -/
def outAt {N : ℕ} (le x : (⟨2, ![N, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (p : Fin N) (q : Fin 128) : EReal :=
  ((∑ l : Fin 128, (le (ix2 p l) + x (ix2 p l)) * w1 (ix2 q l)) + b1 (ix1 q))
    + ((∑ l : Fin 128, (le (ix2 p l) * x (ix2 p l)) * w2 (ix2 q l)) + b2 (ix1 q))

/-- The layer's output array: entry i is `outAt` at i's two coordinates. -/
def out {N : ℕ} (le x : (⟨2, ![N, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![N, 128]⟩ : Shape).Idx → EReal :=
  fun i => outAt le x w1 b1 w2 b2 (i 0) (i 1)

/-- The output array read at coordinates. -/
theorem out_ix2 {N : ℕ} (le x : (⟨2, ![N, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (p : Fin N) (q : Fin 128) :
    out le x w1 b1 w2 b2 (ix2 p q) = outAt le x w1 b1 w2 b2 p q := rfl

end Cert.GnnSpec

end
-- ==== Proof.KernelValue.lean ====
/-
  The kernel program's result as a function of its arguments.

  The result array is, entry by entry, the function `whole` of the six staged arrays; those are the aggregated
  messages, the features, the transposed weights and the bias rows; and `whole` of these is the specification's
  dense layer: entry (l, q) of a transposed weight matrix is entry (q, l) of the matrix, entry (0, q) of a bias
  row is entry q of the vector.
-/
import proofs.«177855_j14817637171801_1_alg».proof.Proof.KernelBlocks
import proofs.«177855_j14817637171801_1_alg».proof.Proof.KernelHost
import proofs.«177855_j14817637171801_1_alg».proof.Proof.Spec
import Idealize.ShloMosaic.Lib.ValueLayout

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx

/-- `whole` of the transposed weights and the bias rows is the specification's output array. -/
theorem whole_eq_out (le x : FVec Ideal S100000x128 .f32) (w1 : FVec Ideal S128x128 .f32) (b1 : FVec Ideal S128 .f32)
    (w2 : FVec Ideal S128x128 .f32) (b2 : FVec Ideal S128 .f32) :
    whole le x (truncf .bf16 (transpose S128x128 [1, 0] w1 transposes_S128x128_S128x128_1_0) bitsLt_bf16_f32)
        (shapeCast S1x128 b1 shapeCasts_S128_S1x128)
        (truncf .bf16 (transpose S128x128 [1, 0] w2 transposes_S128x128_S128x128_1_0) bitsLt_bf16_f32)
        (shapeCast S1x128 b2 shapeCasts_S128_S1x128)
      = Cert.GnnSpec.out (N := 100000) le x w1 b1 w2 b2 := by
  funext i
  obtain ⟨p, q, rfl⟩ : ∃ (p : Fin 100000) (q : Fin 128), i = ix2 p q := ⟨i 0, i 1, eq_ix2 i⟩
  show entry _ _ _ _ _ _ p q = Cert.GnnSpec.outAt le x w1 b1 w2 b2 p q
  unfold entry Cert.GnnSpec.outAt
  refine congrArg₂ (· + ·)
    (congrArg₂ (· + ·) (Finset.sum_congr rfl fun l _ => ?_) (shapeCast_a_1a_apply b1 shapeCasts_S128_S1x128 0 q))
    (congrArg₂ (· + ·) (Finset.sum_congr rfl fun l _ => ?_) (shapeCast_a_1a_apply b2 shapeCasts_S128_S1x128 0 q))
  · exact congrArg (_ * ·) (transpose_ix2_apply w1 transposes_S128x128_S128x128_1_0 l q)
  · exact congrArg (_ * ·) (transpose_ix2_apply w2 transposes_S128x128_S128x128_1_0 l q)

variable (m : (ℓ : Loc nD τ sig) → Buf (Elt Ideal) ℓ) (ρ : Dev nD → PrngReg)

/-- The result array after the run is the dense layer of the aggregated messages. -/
theorem final_out (c : Dev nD) :
    (dats m 0 c).arrAt 6 cfg0.N
      = Cert.GnnSpec.out (N := 100000)
          (aggregate (F := Ideal) (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [final, staged0, staged1, staged2, staged3, staged4, staged5]
  exact whole_eq_out _ _ _ _ _ _

/-- The kernel program's run, read: the result buffer ends at the dense layer of the aggregated messages, the
    arguments as launched. -/
theorem run : θ_run defs (onTc (τ := τ) (main (F := Ideal))) ⟨m, fun _ => 0, ρ⟩ fun r => ∀ c : Dev nD,
      r.2.mem ((c.tc : Thread nD τ).loc main_v13)
          = Cert.GnnSpec.out (N := 100000)
              (aggregate (F := Ideal) (m ((c.tc : Thread nD τ).loc main_arg0)) (m ((c.tc : Thread nD τ).loc main_arg1))
                (m ((c.tc : Thread nD τ).loc main_arg2)) (m ((c.tc : Thread nD τ).loc main_arg3)))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final_out m c), (h c).2⟩) (Cert.KernelIdeal.Value.run_blocks m ρ)

end Cert.KernelIdeal.Hand

end
-- ==== Proof.RefPrefix.lean ====
/-
  The reference's first thirty host operations compute the aggregated messages.

  The reference aggregates exactly as the kernel program's host prefix does: jnp.take of the feature rows by
  source node, each row scaled by its edge value, the segment sum by destination node.  The same five
  stretches of operations, each a function of a few buffers whatever the contents of the rest, give the same
  function `aggregate` of the edge list and the features (stated over this program's own shape names).
-/
import proofs.«177855_j14817637171801_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The aggregation as a composition of four steps -/

/-- A source index below zero has the node count added (python's negative indexing); the result as a column. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge, whether the wrapped source index lies in 0 .. 99999. -/
def inRange (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Per edge, the feature row of its source node (the gather clamps the index), or the not-a-number pattern
    when the wrapped index is out of range. -/
def takeRows (feats : FVec F S100000x128 .f32) (idx : IVec S1600000x1 32) (ok : IVec S1600000 1) :
    FVec F S1600000x128 .f32 :=
  select (broadcastInDim S1600000x128 ![0] bcast_S1600000_S1600000x128_0 ok)
    (Host.gather gather_S100000x128_S1600000x1_S1600000x128_1_0_n_n_0_1_1128 feats idx)
    (broadcastInDim S1600000x128 ![] bcast_S_S1600000x128 (constant S_ .f32 0x7FC00000#32))

/-- The rows scaled by the edge values (given as a column) and scatter-added by destination node onto zero. -/
def scatterRows (dst : IVec S1600000 32) (vals : FVec F S1600000x1 .f32) (rows : FVec F S1600000x128 .f32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (broadcastInDim S1600000x128 ![0, 1] bcast_S1600000x1_S1600000x128_0_1 vals) rows)

/-- The aggregated messages: row d is the sum over the edges e with destination d of vals[e] times the feature
    row of e's source node. -/
def aggregate (src dst : IVec S1600000 32) (vals : FVec F S1600000 .f32) (feats : FVec F S100000x128 .f32) :
    FVec F S100000x128 .f32 :=
  scatterRows dst (broadcastInDim S1600000x1 ![0] bcast_S1600000_S1600000x1_0 vals)
    (takeRows feats (wrapIdx src) (inRange (wrapIdx src)))

/-! ## The thirty host operations that compute it, in five stretches -/

/-- The edge values as a column. -/
abbrev pre0 : List (HloOp τ sig (Elt F)) :=
  [ StableHlo.unary main_arg2 main_v0 (broadcastInDim S1600000x1 ![0] bcast_S1600000_S1600000x1_0 : (⟨S1600000, .f32⟩ : BufTy).Contents (Elt F) → (⟨S1600000x1, .f32⟩ : BufTy).Contents (Elt F)) ]

/-- The wrapped source index as a column (`main_call0_v5`). -/
abbrev pre1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_arg0 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_arg0 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_arg0 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]

/-- The in-range test (`main_call0_v12`). -/
abbrev pre2 : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The gathered rows (`main_v1`). -/
abbrev pre3 : List (HloOp τ sig (Elt F)) :=
  [ StableHlo.TRef.binary (.of main_arg3 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i),
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v1 : StableHlo.TRef sig ⟨S1600000x128, .f32⟩) select ]

/-- The scaling and the scatter-add (`main_v6`). -/
abbrev pre4 : List (HloOp τ sig (Elt F)) :=
  [ StableHlo.unary main_v0 main_v2 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v2 main_v1 main_v3 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v4 (broadcastInDim S100000x128 ![] bcast_S_S100000x128 : (⟨S_, .f32⟩ : BufTy).Contents (Elt F) → (⟨S100000x128, .f32⟩ : BufTy).Contents (Elt F)),
    StableHlo.unary main_arg1 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v3 main_v6 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Running two lines one after the other folds the second over what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

section Stages
variable (W : Valuation τ sig (Elt F))

/-! Each stretch read from ANY contents W of the buffers: what it computes, and the buffers it leaves alone. -/

theorem s0_v0 : after (pre0 (F := F)) W (main_v0 : DevRef τ sig)
    = broadcastInDim S1600000x1 ![0] bcast_S1600000_S1600000x1_0 (W (main_arg2 : DevRef τ sig)) := by
  simp only [pre0]; after_results_simp
theorem s0_arg0 : after (pre0 (F := F)) W (main_arg0 : DevRef τ sig) = W (main_arg0 : DevRef τ sig) := by
  simp only [pre0]; after_results_simp
theorem s0_arg1 : after (pre0 (F := F)) W (main_arg1 : DevRef τ sig) = W (main_arg1 : DevRef τ sig) := by
  simp only [pre0]; after_results_simp
theorem s0_arg3 : after (pre0 (F := F)) W (main_arg3 : DevRef τ sig) = W (main_arg3 : DevRef τ sig) := by
  simp only [pre0]; after_results_simp

theorem s1_v5 : after (pre1 (F := F)) W (main_call0_v5 : DevRef τ sig) = wrapIdx (W (main_arg0 : DevRef τ sig)) := by
  simp only [pre1]; after_results_simp
  simp only [TRef.ofBuf, TRef.toBuf, cast_eq]
  rfl
theorem s1_arg1 : after (pre1 (F := F)) W (main_arg1 : DevRef τ sig) = W (main_arg1 : DevRef τ sig) := by
  simp only [pre1]; after_results_simp
theorem s1_arg3 : after (pre1 (F := F)) W (main_arg3 : DevRef τ sig) = W (main_arg3 : DevRef τ sig) := by
  simp only [pre1]; after_results_simp
theorem s1_v0 : after (pre1 (F := F)) W (main_v0 : DevRef τ sig) = W (main_v0 : DevRef τ sig) := by
  simp only [pre1]; after_results_simp

theorem s2_v12 : after (pre2 (F := F)) W (main_call0_v12 : DevRef τ sig) = inRange (W (main_call0_v5 : DevRef τ sig)) := by
  simp only [pre2]; after_results_simp
  simp only [TRef.ofBuf, TRef.toBuf, cast_eq]
  rfl
theorem s2_v5 : after (pre2 (F := F)) W (main_call0_v5 : DevRef τ sig) = W (main_call0_v5 : DevRef τ sig) := by
  simp only [pre2]; after_results_simp
theorem s2_arg1 : after (pre2 (F := F)) W (main_arg1 : DevRef τ sig) = W (main_arg1 : DevRef τ sig) := by
  simp only [pre2]; after_results_simp
theorem s2_arg3 : after (pre2 (F := F)) W (main_arg3 : DevRef τ sig) = W (main_arg3 : DevRef τ sig) := by
  simp only [pre2]; after_results_simp
theorem s2_v0 : after (pre2 (F := F)) W (main_v0 : DevRef τ sig) = W (main_v0 : DevRef τ sig) := by
  simp only [pre2]; after_results_simp

theorem s3_v1 : after (pre3 (F := F)) W (main_v1 : DevRef τ sig)
    = takeRows (W (main_arg3 : DevRef τ sig)) (W (main_call0_v5 : DevRef τ sig)) (W (main_call0_v12 : DevRef τ sig)) := by
  simp only [pre3]; after_results_simp
  simp only [TRef.ofBuf, TRef.toBuf, cast_eq]
  rfl
theorem s3_arg1 : after (pre3 (F := F)) W (main_arg1 : DevRef τ sig) = W (main_arg1 : DevRef τ sig) := by
  simp only [pre3]; after_results_simp
theorem s3_v0 : after (pre3 (F := F)) W (main_v0 : DevRef τ sig) = W (main_v0 : DevRef τ sig) := by
  simp only [pre3]; after_results_simp

theorem s4_v6 : after (pre4 (F := F)) W (main_v6 : DevRef τ sig)
    = scatterRows (W (main_arg1 : DevRef τ sig)) (W (main_v0 : DevRef τ sig)) (W (main_v1 : DevRef τ sig)) := by
  simp only [pre4]; after_results_simp
  rfl

end Stages

/-- The thirty operations, from ANY contents W of the buffers, leave the aggregated messages of W's edge list
    and features in `main_v6`. -/
theorem prefix_msgs (W : Valuation τ sig (Elt F)) :
    after (pre0 ++ pre1 ++ pre2 ++ pre3 ++ pre4) W (main_v6 : DevRef τ sig)
      = aggregate (W (main_arg0 : DevRef τ sig)) (W (main_arg1 : DevRef τ sig)) (W (main_arg2 : DevRef τ sig))
          (W (main_arg3 : DevRef τ sig)) := by
  rw [after_append', after_append', after_append', after_append']
  rw [s4_v6, s3_v1, s3_arg1, s3_v0, s2_v12, s2_v5, s2_arg3, s2_arg1, s2_v0, s1_v5, s1_arg3, s1_arg1, s1_v0,
    s0_v0, s0_arg0, s0_arg1, s0_arg3]
  rfl

end Cert.ReferenceIdeal.Hand

end
-- ==== Proof.RefRun.lean ====
/-
  The reference program as a straight line of host operations, and its run.

  The reference's @main is forty-four host operations once the gather's outlined helper (and the select it
  calls in turn) are written out at their call sites: the first thirty build the aggregated messages
  (the clamped gather of feature rows, their scaling by the edge values, the scatter-add by destination),
  the last fourteen are the dense layer.  Every weakly fair execution runs them in order and ends with each
  buffer at the fold of the operations over the launch contents.
-/
import proofs.«177855_j14817637171801_1_alg».proof.Proof.RefPrefix
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The thirty operations that build the aggregated messages `main_v6`, in their five stretches. -/
abbrev opsA : List (HloOp τ sig (Elt F)) := pre0 ++ pre1 ++ pre2 ++ pre3 ++ pre4

/-- The fourteen operations of the dense layer, from `main_v6` and the arguments to the result `main_v19`. -/
abbrev opsB : List (HloOp τ sig (Elt F)) :=
  [ StableHlo.binary main_v6 main_arg3 main_v7 (addf : (⟨S100000x128, .f32⟩ : BufTy).Contents (Elt F) → (⟨S100000x128, .f32⟩ : BufTy).Contents (Elt F) → (⟨S100000x128, .f32⟩ : BufTy).Contents (Elt F)),
    StableHlo.unary main_arg4 main_v8 ((transpose S128x128 [1, 0] · transposes_S128x128_S128x128_1_0) : (⟨S128x128, .f32⟩ : BufTy).Contents (Elt F) → (⟨S128x128, .f32⟩ : BufTy).Contents (Elt F)),
    StableHlo.binary main_v7 main_v8 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v9 main_v11 main_v12 (addf : (⟨S100000x128, .f32⟩ : BufTy).Contents (Elt F) → (⟨S100000x128, .f32⟩ : BufTy).Contents (Elt F) → (⟨S100000x128, .f32⟩ : BufTy).Contents (Elt F)),
    StableHlo.binary main_v6 main_arg3 main_v13 (mulf : (⟨S100000x128, .f32⟩ : BufTy).Contents (Elt F) → (⟨S100000x128, .f32⟩ : BufTy).Contents (Elt F) → (⟨S100000x128, .f32⟩ : BufTy).Contents (Elt F)),
    StableHlo.unary main_arg6 main_v14 ((transpose S128x128 [1, 0] · transposes_S128x128_S128x128_1_0) : (⟨S128x128, .f32⟩ : BufTy).Contents (Elt F) → (⟨S128x128, .f32⟩ : BufTy).Contents (Elt F)),
    StableHlo.binary main_v13 main_v14 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.binary main_v12 main_v18 main_v19 (addf : (⟨S100000x128, .f32⟩ : BufTy).Contents (Elt F) → (⟨S100000x128, .f32⟩ : BufTy).Contents (Elt F) → (⟨S100000x128, .f32⟩ : BufTy).Contents (Elt F)) ]

/-- @main's operations, in order. -/
abbrev ops : List (HloOp τ sig (Elt F)) := opsA ++ opsB

set_option maxRecDepth 4096 in
/-- @main is that straight line: the helper functions' bodies written out at their calls. -/
theorem main_eq (c : Dev nD) : main (F := F) c = seq ops := by
  simp only [main, fn_take.body, fn_where.body, ops, opsA, opsB, pre0, pre1, pre2, pre3, pre4, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig := by
  simp only [opsA, pre0, pre1, pre2, pre3, pre4, List.cons_append, List.nil_append]
  exact ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩

theorem opsB_sub : (opsB : List (HloOp τ sig (Elt F))).Forall fun op => op.bufs ⊆ tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

/-- Every weakly fair execution of @main terminates, with each buffer at the fold of the operations over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  The reference's result as a function of its arguments.

  Its first thirty operations build the same aggregated messages as the kernel program's host prefix (`aggregate`,
  the same operations on the same arrays); its last fourteen are the dense layer
      ((LE + X) W1^T + b1) + ((LE * X) W2^T + b2)
  with each bias broadcast over the rows.  Read at an entry, the layer is the specification's `outAt`.
-/
import proofs.«177855_j14817637171801_1_alg».proof.Proof.RefRun
import proofs.«177855_j14817637171801_1_alg».proof.Proof.KernelPrefix
import proofs.«177855_j14817637171801_1_alg».proof.Proof.Spec
import proofs.«177855_j14817637171801_1_alg».proof.Proof.LibPlainDot
import Idealize.ShloMosaic.Lib.ValueIdx
import Idealize.ShloMosaic.Lib.ValueLayout
import Idealize.ShloMosaic.Lib.Pipeline.Value

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

section AnyInstance
variable {F : FTy → Type} [FloatOps F]

/-- The dense layer as the reference writes it. -/
def dense (le x : FVec F S100000x128 .f32) (w1 : FVec F S128x128 .f32) (b1 : FVec F S128 .f32)
    (w2 : FVec F S128x128 .f32) (b2 : FVec F S128 .f32) : FVec F S100000x128 .f32 :=
  addf
    (addf (Host.dotGeneral dot_S100000x128_S128x128_S100000x128_1_0_0_1_n_n none (addf le x) (transpose S128x128 [1, 0] w1 transposes_S128x128_S128x128_1_0))
      (broadcastInDim S100000x128 ![0, 1] bcast_S1x128_S100000x128_0_1 (broadcastInDim S1x128 ![1] bcast_S128_S1x128_1 b1)))
    (addf (Host.dotGeneral dot_S100000x128_S128x128_S100000x128_1_0_0_1_n_n none (mulf le x) (transpose S128x128 [1, 0] w2 transposes_S128x128_S128x128_1_0))
      (broadcastInDim S100000x128 ![0, 1] bcast_S1x128_S100000x128_0_1 (broadcastInDim S1x128 ![1] bcast_S128_S1x128_1 b2)))

/-- The last fourteen operations leave the dense layer of what they find in the result buffer. -/
theorem tail_eq (W : Valuation τ sig (Elt F)) :
    after opsB W (main_v19 : DevRef τ sig)
      = dense (W (main_v6 : DevRef τ sig)) (W (main_arg3 : DevRef τ sig)) (W (main_arg4 : DevRef τ sig))
          (W (main_arg5 : DevRef τ sig)) (W (main_arg6 : DevRef τ sig)) (W (main_arg7 : DevRef τ sig)) := by
  dsimp only [opsB]
  after_results_simp
  rfl

/-- This program's `aggregate` and the kernel program's are one function: the same operations over the same shapes
    and dimension numbers, step by step. -/
theorem wrapIdx_eq (src : IVec S1600000 32) : wrapIdx src = Cert.KernelIdeal.Hand.wrapIdx src := rfl
theorem inRange_eq (idx : IVec S1600000x1 32) : inRange idx = Cert.KernelIdeal.Hand.inRange idx := rfl
theorem takeRows_eq (feats : FVec F S100000x128 .f32) (idx : IVec S1600000x1 32) (ok : IVec S1600000 1) :
    takeRows feats idx ok = Cert.KernelIdeal.Hand.takeRows feats idx ok := rfl
theorem scatterRows_eq (dst : IVec S1600000 32) (vals : FVec F S1600000x1 .f32) (rows : FVec F S1600000x128 .f32) :
    scatterRows dst vals rows = Cert.KernelIdeal.Hand.scatterRows dst vals rows := rfl
theorem aggregate_eq (src dst : IVec S1600000 32) (vals : FVec F S1600000 .f32) (feats : FVec F S100000x128 .f32) :
    aggregate src dst vals feats = Cert.KernelIdeal.Hand.aggregate src dst vals feats := by
  unfold aggregate Cert.KernelIdeal.Hand.aggregate
  rw [scatterRows_eq, takeRows_eq, inRange_eq, wrapIdx_eq]

section Frames
variable (W : Valuation τ sig (Elt F))

/-- The first thirty operations leave the features, weights and biases as they were. -/
theorem opsA_arg3 : after (opsA (F := F)) W (main_arg3 : DevRef τ sig) = W (main_arg3 : DevRef τ sig) := by
  simp only [opsA, pre0, pre1, pre2, pre3, pre4, List.cons_append, List.nil_append]; after_results_simp
theorem opsA_arg4 : after (opsA (F := F)) W (main_arg4 : DevRef τ sig) = W (main_arg4 : DevRef τ sig) := by
  simp only [opsA, pre0, pre1, pre2, pre3, pre4, List.cons_append, List.nil_append]; after_results_simp
theorem opsA_arg5 : after (opsA (F := F)) W (main_arg5 : DevRef τ sig) = W (main_arg5 : DevRef τ sig) := by
  simp only [opsA, pre0, pre1, pre2, pre3, pre4, List.cons_append, List.nil_append]; after_results_simp
theorem opsA_arg6 : after (opsA (F := F)) W (main_arg6 : DevRef τ sig) = W (main_arg6 : DevRef τ sig) := by
  simp only [opsA, pre0, pre1, pre2, pre3, pre4, List.cons_append, List.nil_append]; after_results_simp
theorem opsA_arg7 : after (opsA (F := F)) W (main_arg7 : DevRef τ sig) = W (main_arg7 : DevRef τ sig) := by
  simp only [opsA, pre0, pre1, pre2, pre3, pre4, List.cons_append, List.nil_append]; after_results_simp

end Frames

/-- All forty-four operations, from ANY contents W of the buffers, leave in the result buffer the dense layer of
    the aggregated messages of W's edge list and features. -/
theorem result_eq (W : Valuation τ sig (Elt F)) :
    after (ops (F := F)) W (main_v19 : DevRef τ sig)
      = dense (Cert.KernelIdeal.Hand.aggregate (W (main_arg0 : DevRef τ sig)) (W (main_arg1 : DevRef τ sig))
            (W (main_arg2 : DevRef τ sig)) (W (main_arg3 : DevRef τ sig)))
          (W (main_arg3 : DevRef τ sig)) (W (main_arg4 : DevRef τ sig)) (W (main_arg5 : DevRef τ sig))
          (W (main_arg6 : DevRef τ sig)) (W (main_arg7 : DevRef τ sig)) := by
  show after (opsA ++ opsB) W (main_v19 : DevRef τ sig) = _
  rw [after_append', tail_eq, opsA_arg3, opsA_arg4, opsA_arg5, opsA_arg6, opsA_arg7]
  show dense (after (pre0 ++ pre1 ++ pre2 ++ pre3 ++ pre4) W (main_v6 : DevRef τ sig)) _ _ _ _ _ = _
  rw [prefix_msgs, aggregate_eq]

/-- No operation writes an argument. -/
theorem arg_kept (W : Valuation τ sig (Elt F)) :
    after (ops (F := F)) W (main_arg0 : DevRef τ sig) = W (main_arg0 : DevRef τ sig)
    ∧ after (ops (F := F)) W (main_arg1 : DevRef τ sig) = W (main_arg1 : DevRef τ sig)
    ∧ after (ops (F := F)) W (main_arg2 : DevRef τ sig) = W (main_arg2 : DevRef τ sig)
    ∧ after (ops (F := F)) W (main_arg3 : DevRef τ sig) = W (main_arg3 : DevRef τ sig)
    ∧ after (ops (F := F)) W (main_arg4 : DevRef τ sig) = W (main_arg4 : DevRef τ sig)
    ∧ after (ops (F := F)) W (main_arg5 : DevRef τ sig) = W (main_arg5 : DevRef τ sig)
    ∧ after (ops (F := F)) W (main_arg6 : DevRef τ sig) = W (main_arg6 : DevRef τ sig)
    ∧ after (ops (F := F)) W (main_arg7 : DevRef τ sig) = W (main_arg7 : DevRef τ sig) := by
  simp only [ops, opsA, opsB, pre0, pre1, pre2, pre3, pre4, List.cons_append, List.nil_append]
  refine ⟨?_, ?_, ?_, ?_, ?_, ?_, ?_, ?_⟩ <;> after_results_simp

/-- The reference's run, read: the result buffer ends at the dense layer of the aggregated messages, the
    arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = dense (Cert.KernelIdeal.Hand.aggregate (m ((c.tc : Thread nD τ).loc main_arg0)) (m ((c.tc : Thread nD τ).loc main_arg1))
              (m ((c.tc : Thread nD τ).loc main_arg2)) (m ((c.tc : Thread nD τ).loc main_arg3)))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have k := arg_kept (launchContents m c)
      ⟨(h c main_v19).trans (result_eq _),
        (h c main_arg0).trans k.1, (h c main_arg1).trans k.2.1, (h c main_arg2).trans k.2.2.1,
        (h c main_arg3).trans k.2.2.2.1, (h c main_arg4).trans k.2.2.2.2.1, (h c main_arg5).trans k.2.2.2.2.2.1,
        (h c main_arg6).trans k.2.2.2.2.2.2.1, (h c main_arg7).trans k.2.2.2.2.2.2.2⟩)
    (run_all m ρ)

end AnyInstance

/-- The reference's dimension numbers are those of a plain 100000 x 128 by 128 x 128 product. -/
theorem dot_plain : dot_S100000x128_S128x128_S100000x128_1_0_0_1_n_n = DotDims.plain 100000 128 128 := rfl

/-- A bias vector given a leading unit axis and broadcast over the rows reads, at (p, q), the vector at q. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply ![0, 1] bcast_S1x128_S100000x128_0_1 _ (ix2 p q) (ix2 (0 : Fin 1) q)
      (fun a => match a with | ⟨0, _⟩ => rfl | ⟨1, _⟩ => rfl)).trans
    (broadcastInDim_apply ![1] bcast_S128_S1x128_1 b (ix2 (0 : Fin 1) q) (ix1 q) (fun a => match a with | ⟨0, _⟩ => rfl))

/-- The dense layer, read at the ideal values, is the specification's output array. -/
theorem dense_eq_out (le x : FVec Ideal S100000x128 .f32) (w1 : FVec Ideal S128x128 .f32) (b1 : FVec Ideal S128 .f32)
    (w2 : FVec Ideal S128x128 .f32) (b2 : FVec Ideal S128 .f32) :
    dense le x w1 b1 w2 b2 = Cert.GnnSpec.out le x w1 b1 w2 b2 := by
  funext i
  obtain ⟨p, q, rfl⟩ : ∃ (p : Fin 100000) (q : Fin 128), i = ix2 p q := ⟨i 0, i 1, eq_ix2 i⟩
  rw [Cert.GnnSpec.out_ix2]
  unfold dense Cert.GnnSpec.outAt
  simp only [dot_plain]
  rw [addf_apply, addf_apply, addf_apply]
  refine congrArg₂ (· + ·) (congrArg₂ (· + ·) ?_ (bias_apply b1 p q)) (congrArg₂ (· + ·) ?_ (bias_apply b2 p q))
  · refine (Cert.LibPlainDot.dotGeneral_apply none .single (addf le x) _ p q).trans (Finset.sum_congr rfl fun l _ => ?_)
    exact congrArg₂ (· * ·) (addf_apply le x (ix2 p l)) (transpose_ix2_apply w1 transposes_S128x128_S128x128_1_0 l q)
  · refine (Cert.LibPlainDot.dotGeneral_apply none .single (mulf le x) _ p q).trans (Finset.sum_congr rfl fun l _ => ?_)
    exact congrArg₂ (· * ·) (mulf_apply le x (ix2 p l)) (transpose_ix2_apply w2 transposes_S128x128_S128x128_1_0 l q)

end Cert.ReferenceIdeal.Hand

end
-- ==== Proof.lean ====
/-
  A message-passing layer: LE = segment_sum(vals * feats[src], dst), then
      out = ((LE + feats) W1^T + b1) + ((LE * feats) W2^T + b2).

  The kernel program computes LE on the host, by the same operations as the reference, and the dense layer in one
  pallas_call over ten blocks of 10000 nodes; the reference computes everything on the host.  Read on the
  extended reals both end with the same array: the specification's dense layer (Proof/Spec.lean) of the same
  function `aggregate` of the edge list and the features (Proof/KernelPrefix.lean).  A matrix product into a zero
  accumulator is the plain sum over the contraction index on both sides, the narrowing of a matmul operand to
  bf16 is the identity, and both programs group the sums in the same way, so the two results are equal term by
  term: no finiteness of the inputs is used.

  The three frames: the kernel program's two are its generated frame certificates; the reference has no kernel,
  and its frame is its run (Proof/RefRun.lean, Proof/RefValue.lean) with the result dropped.  The ideal pass
  rewrote nothing, so `preserves` is trivial.
-/
import proofs.«177855_j14817637171801_1_alg».proof.Defs
import proofs.«177855_j14817637171801_1_alg».proof.Proof.Gen.Kernel
import proofs.«177855_j14817637171801_1_alg».proof.Proof.Gen.Kernel.Frame
import proofs.«177855_j14817637171801_1_alg».proof.Proof.Gen.KernelIdeal
import proofs.«177855_j14817637171801_1_alg».proof.Proof.Gen.KernelIdeal.Frame
import proofs.«177855_j14817637171801_1_alg».proof.Proof.Gen.KernelIdeal.Value
import proofs.«177855_j14817637171801_1_alg».proof.Proof.Gen.ReferenceIdeal
import proofs.«177855_j14817637171801_1_alg».proof.Proof.Gen.Pre_finite_inputs
import proofs.«177855_j14817637171801_1_alg».proof.Proof.KernelValue
import proofs.«177855_j14817637171801_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end with the specification's dense layer of the aggregated messages of the (agreeing)
    arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  exact Cert.ReferenceIdeal.Hand.dense_eq_out _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
